-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x512x512x3 : Shape := ⟨4, ![64, 512, 512, 3]⟩
abbrev S_ : Shape := ⟨0, ![]⟩

class Facts : Prop where
  bcast_S_S64x512x512x3 : S_.BroadcastsInDim S64x512x512x3 (![] : Fin 0 → Fin S64x512x512x3.rank)
  reducesTo_S64x512x512x3_S_d0_1_2_3 : S64x512x512x3.ReducesTo [0, 1, 2, 3] S_
  h_S_ : 0 < S_.numel

variable [Facts]

def fn {F : FTy → Type} [FloatOps F] (main_arg0 : FVec F S64x512x512x3 .f32) : IVec S_ 1 :=
  let main_v0 : FVec F S64x512x512x3 .f32 := Host.absf main_arg0
  let main_cst : FVec F S_ .f32 := constant S_ .f32 0x7F800000#32
  let main_v1 : FVec F S64x512x512x3 .f32 := broadcastInDim S64x512x512x3 ![] bcast_S_S64x512x512x3 main_cst
  let main_v2 : IVec S64x512x512x3 1 := cmpf .olt main_v0 main_v1
  let main_c : IVec S_ 1 := constantI S_ 1 1#1
  let main_v3 : IVec S_ 1 := (fun x v => Host.reduce IntOp.andi x v reducesTo_S64x512x512x3_S_d0_1_2_3 h_S_) main_v2 main_c
  main_v3
-- ==== Kernel.lean ====
abbrev S64x512x512x3 : Shape := ⟨4, ![64, 512, 512, 3]⟩
abbrev S64x32x16x32x48 : Shape := ⟨5, ![64, 32, 16, 32, 48]⟩
abbrev S64x32x32x16x48 : Shape := ⟨5, ![64, 32, 32, 16, 48]⟩
abbrev S1x8x16x32x48 : Shape := ⟨5, ![1, 8, 16, 32, 48]⟩
abbrev S1x8x32x16x48 : Shape := ⟨5, ![1, 8, 32, 16, 48]⟩
abbrev S64x1024x16x16x3 : Shape := ⟨5, ![64, 1024, 16, 16, 3]⟩

abbrev nBuf : Space → Nat
  | .hbm => 4
  | .vmem => 4
  | .smem => 0
  | _ => 0

abbrev bufTy : (tb : Table) → Fin (tcTables nBuf tb) → BufTy
  | .hbm, ⟨0, _⟩ => ⟨S64x512x512x3, .f32⟩
  | .hbm, ⟨1, _⟩ => ⟨S64x32x16x32x48, .f32⟩
  | .hbm, ⟨2, _⟩ => ⟨S64x32x32x16x48, .f32⟩
  | .hbm, ⟨3, _⟩ => ⟨S64x1024x16x16x3, .f32⟩
  | .local _ .vmem, ⟨0, _⟩ => ⟨S1x8x16x32x48, .f32⟩
  | .local _ .vmem, ⟨1, _⟩ => ⟨S1x8x16x32x48, .f32⟩
  | .local _ .vmem, ⟨2, _⟩ => ⟨S1x8x32x16x48, .f32⟩
  | .local _ .vmem, ⟨3, _⟩ => ⟨S1x8x32x16x48, .f32⟩
  | _, _ => ⟨S64x512x512x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![64, 4], ![false, false]⟩

def cc0_transform_0 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc0_transform_1 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

abbrev stage0_0 : Fin 2 → Memref sig .tc .vmem S1x8x16x32x48 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8x32x16x48 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

class Facts₀ : Prop where
  shapeCasts_S64x512x512x3_S64x32x16x32x48 : S64x512x512x3.ShapeCasts S64x32x16x32x48
  inb_S1x8x16x32x48_S1x8x16x32x48_0_0_0_0_0 : ∀ a, (![0, 0, 0, 0, 0] : Fin 5 → Nat) a + S1x8x16x32x48.size a ≤ S1x8x16x32x48.size a
  h_S1x8x16x32x48 : 0 < S1x8x16x32x48.numel
  shapeCasts_S1x8x16x32x48_S1x8x16x32x48 : S1x8x16x32x48.ShapeCasts S1x8x16x32x48
  transposes_S1x8x16x32x48_p0_1_3_2_4_S1x8x32x16x48 : S1x8x16x32x48.Transposes [0, 1, 3, 2, 4] S1x8x32x16x48
  inb_S1x8x32x16x48_S1x8x32x16x48_0_0_0_0_0 : ∀ a, (![0, 0, 0, 0, 0] : Fin 5 → Nat) a + S1x8x32x16x48.size a ≤ S1x8x32x16x48.size a
  h_S1x8x32x16x48 : 0 < S1x8x32x16x48.numel
  shapeCasts_S64x32x32x16x48_S64x1024x16x16x3 : S64x32x32x16x48.ShapeCasts S64x1024x16x16x3
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x8x16x32x48.size a ≤ S64x32x16x32x48.size a
  hwx0_0 : ∀ i : grid0.Coords, EltTy.bits .f32 = 32 ∨ (Rect.block (s := S64x32x16x32x48) S1x8x16x32x48.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x8x32x16x48.size a ≤ S64x32x32x16x48.size a
  hwx0_1 : ∀ i : grid0.Coords, EltTy.bits .f32 = 32 ∨ (Rect.block (s := S64x32x32x16x48) S1x8x32x16x48.size (cc0_transform_1 i) (hinb0_1 i)).WholeWords (EltTy.packing .f32)

variable [Facts₀]

abbrev win0_0 : Pipeline.Window sig grid0 :=
  Pipeline.Window.ofSpec (Memref.whole main_v0) S1x8x16x32x48.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x8x32x16x48.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S64x512x512x3 : Shape := ⟨4, ![64, 512, 512, 3]⟩
abbrev S64x32x16x32x16x3 : Shape := ⟨6, ![64, 32, 16, 32, 16, 3]⟩
abbrev S64x32x32x16x16x3 : Shape := ⟨6, ![64, 32, 32, 16, 16, 3]⟩
abbrev S64x1024x16x16x3 : Shape := ⟨5, ![64, 1024, 16, 16, 3]⟩

abbrev nBuf : Space → Nat
  | .hbm => 4
  | .vmem => 0
  | .smem => 0
  | _ => 0

abbrev bufTy : (tb : Table) → Fin (tcTables nBuf tb) → BufTy
  | .hbm, ⟨0, _⟩ => ⟨S64x512x512x3, .f32⟩
  | .hbm, ⟨1, _⟩ => ⟨S64x32x16x32x16x3, .f32⟩
  | .hbm, ⟨2, _⟩ => ⟨S64x32x32x16x16x3, .f32⟩
  | .hbm, ⟨3, _⟩ => ⟨S64x1024x16x16x3, .f32⟩
  | _, _ => ⟨S64x512x512x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩

abbrev nD : Nat := 1
abbrev τ : Topo := Topo.v7x

variable {F : FTy → Type} [FloatOps F]

class Facts₀ : Prop where
  shapeCasts_S64x512x512x3_S64x32x16x32x16x3 : S64x512x512x3.ShapeCasts S64x32x16x32x16x3
  transposes_S64x32x16x32x16x3_S64x32x32x16x16x3_0_1_3_2_4_5 : S64x32x16x32x16x3.Transposes [0, 1, 3, 2, 4, 5] S64x32x32x16x16x3
  shapeCasts_S64x32x32x16x16x3_S64x1024x16x16x3 : S64x32x32x16x16x3.ShapeCasts S64x1024x16x16x3

variable [Facts₀]

class Facts : Prop extends Facts₀ where

variable [Facts]
-- ==== Proof.PatchSpec.lean ====
/-
  Patch extraction as one function of the image, and the two arrangements of it.

  An image batch `x[b, H, W, c]` (64 × 512 × 512 × 3) is cut into non-overlapping 16 × 16 patches, numbered row-major
  over the 32 × 32 grid of patches: patch `n` of image `b` has its top-left pixel at row `16 · (n / 32)` and column
  `16 · (n % 32)`, so

      patches x [b, n, hi, wi, c] = x [b, 16 · (n / 32) + hi, 16 · (n % 32) + wi, c].

  Nothing is computed: every entry of the result is one entry of the image, and the whole statement is about where
  that entry sits. Both programs reach it through reshapes (which keep an entry's row-major position) around one
  exchange of two axes:

  * the image read as `[b, bh, hi, wb, j]` (64 × 32 × 16 × 32 × 48, `j = 3 · wi + c` the 48 numbers of one patch row),
    the axes `hi` and `wb` exchanged (`swapMid`), the result `[b, bh, wb, hi, j]` read as `[b, 32 · bh + wb, hi, wi, c]`
    (`reshape_swap_reshape`);
  * the image read as `[b, bh, hi, wb, wi, c]` (rank 6), `hi` and `wb` exchanged there, and the same final reading
    (`split_apply`, `merge_apply`: the two reshapes at an index; the exchange itself is a transpose read at an index).

  The proofs are the row-major positions of the two indices written as sums of products and compared by linear
  arithmetic with `/ 32`, `% 32`.
-/
import Idealize.ShloMosaic.Lib.Pipeline.Value
import Idealize.ShloMosaic.Lib.ValueIdx
import Idealize.ShloMosaic.Lib.ValueIdxRank6

namespace Cert.Patch

open Idealize.ShloMosaic Idealize.ShloMosaic.ValueIdx

/-- The image batch `[b, H, W, c]`. -/
abbrev Img : Shape := ⟨4, ![64, 512, 512, 3]⟩
/-- The image as rows of patch rows: `[b, bh, hi, wb, j]`, `H = 16 · bh + hi`, `W · 3 + c = 48 · wb + j`. -/
abbrev Rows : Shape := ⟨5, ![64, 32, 16, 32, 48]⟩
/-- The same with `hi` and `wb` exchanged: `[b, bh, wb, hi, j]`. -/
abbrev Tiles : Shape := ⟨5, ![64, 32, 32, 16, 48]⟩
/-- The image with both `H` and `W` split: `[b, bh, hi, wb, wi, c]`. -/
abbrev Split : Shape := ⟨6, ![64, 32, 16, 32, 16, 3]⟩
/-- The same with `hi` and `wb` exchanged: `[b, bh, wb, hi, wi, c]`. -/
abbrev SplitT : Shape := ⟨6, ![64, 32, 32, 16, 16, 3]⟩
/-- The patches `[b, n, hi, wi, c]`, `n = 32 · bh + wb`. -/
abbrev Patches : Shape := ⟨5, ![64, 1024, 16, 16, 3]⟩

variable {α : Type}

/-- The pixel an entry of the result is: entry `(b, n, hi, wi, c)` is pixel `(b, 16 · (n / 32) + hi, 16 · (n % 32) + wi, c)`. -/
def pixelOf (i : Patches.Idx) : Img.Idx := fun a => match a with
  | ⟨0, _⟩ => ⟨(i 0).val, (i 0).isLt⟩
  | ⟨1, _⟩ => ⟨(i 1).val / 32 * 16 + (i 2).val, by
      have h1 : (i 1).val < 1024 := (i 1).isLt
      have h2 : (i 2).val < 16 := (i 2).isLt
      show (i 1).val / 32 * 16 + (i 2).val < 512; omega⟩
  | ⟨2, _⟩ => ⟨(i 1).val % 32 * 16 + (i 3).val, by
      have h3 : (i 3).val < 16 := (i 3).isLt
      show (i 1).val % 32 * 16 + (i 3).val < 512; omega⟩
  | ⟨3, _⟩ => ⟨(i 4).val, (i 4).isLt⟩

/-- THE SPECIFICATION: the patches of an image batch, entry by entry. -/
def patches (x : Img.Idx → α) : Patches.Idx → α := fun i => x (pixelOf i)

/-- The exchange of the two middle axes: `[b, bh, hi, wb, j] ↦ [b, bh, wb, hi, j]`. -/
def swapMid (y : Rows.Idx → α) : Tiles.Idx → α := fun j => y (ix5 (j 0) (j 1) (j 3) (j 2) (j 4))

/-- Entry `(b, n, hi, wi, c)` of the result sits in `[b, bh, wb, hi, j]` at `(b, n / 32, n % 32, hi, 3 · wi + c)`. -/
def tileOf (i : Patches.Idx) : Tiles.Idx := fun a => match a with
  | ⟨0, _⟩ => ⟨(i 0).val, (i 0).isLt⟩
  | ⟨1, _⟩ => ⟨(i 1).val / 32, by
      have h1 : (i 1).val < 1024 := (i 1).isLt
      show (i 1).val / 32 < 32; omega⟩
  | ⟨2, _⟩ => ⟨(i 1).val % 32, by show (i 1).val % 32 < 32; omega⟩
  | ⟨3, _⟩ => ⟨(i 2).val, (i 2).isLt⟩
  | ⟨4, _⟩ => ⟨(i 3).val * 3 + (i 4).val, by
      have h3 : (i 3).val < 16 := (i 3).isLt
      have h4 : (i 4).val < 3 := (i 4).isLt
      show (i 3).val * 3 + (i 4).val < 48; omega⟩

/-- Reshape, exchange, reshape IS patch extraction: `[b, H, W, c]` read as `[b, bh, hi, wb, j]`, `hi` and `wb`
    exchanged, and `[b, bh, wb, hi, j]` read as `[b, n, hi, wi, c]`. -/
theorem reshape_swap_reshape (x : Img.Idx → α) (h1 : Img.ShapeCasts Rows) (h2 : Tiles.ShapeCasts Patches) :
    shapeCast Patches (swapMid (shapeCast Rows x h1)) h2 = patches x := by
  funext i
  have b0 : (i 0).val < 64 := (i 0).isLt
  have b1 : (i 1).val < 1024 := (i 1).isLt
  have b2 : (i 2).val < 16 := (i 2).isLt
  have b3 : (i 3).val < 16 := (i 3).isLt
  have b4 : (i 4).val < 3 := (i 4).isLt
  refine (shapeCast_apply _ h2 i (tileOf i) ?_).trans ?_
  · rw [Shape.rowMajor_val_five, Shape.rowMajor_val_five]
    show ((((i 0).val * 32 + (i 1).val / 32) * 32 + (i 1).val % 32) * 16 + (i 2).val) * 48 + ((i 3).val * 3 + (i 4).val)
      = ((((i 0).val * 1024 + (i 1).val) * 16 + (i 2).val) * 16 + (i 3).val) * 3 + (i 4).val
    omega
  · refine shapeCast_apply x h1 _ (pixelOf i) ?_
    rw [Shape.rowMajor_val_four, Shape.rowMajor_val_five]
    show (((i 0).val * 512 + ((i 1).val / 32 * 16 + (i 2).val)) * 512 + ((i 1).val % 32 * 16 + (i 3).val)) * 3 + (i 4).val
      = ((((i 0).val * 32 + (i 1).val / 32) * 16 + (i 2).val) * 32 + (i 1).val % 32) * 48 + ((i 3).val * 3 + (i 4).val)
    omega

/-- Entry `(b, n, hi, wi, c)` of the result sits in `[b, bh, wb, hi, wi, c]` at `(b, n / 32, n % 32, hi, wi, c)`. -/
def splitTOf (i : Patches.Idx) : SplitT.Idx := fun a => match a with
  | ⟨0, _⟩ => ⟨(i 0).val, (i 0).isLt⟩
  | ⟨1, _⟩ => ⟨(i 1).val / 32, by
      have h1 : (i 1).val < 1024 := (i 1).isLt
      show (i 1).val / 32 < 32; omega⟩
  | ⟨2, _⟩ => ⟨(i 1).val % 32, by show (i 1).val % 32 < 32; omega⟩
  | ⟨3, _⟩ => ⟨(i 2).val, (i 2).isLt⟩
  | ⟨4, _⟩ => ⟨(i 3).val, (i 3).isLt⟩
  | ⟨5, _⟩ => ⟨(i 4).val, (i 4).isLt⟩

/-- The last reshape of the rank-6 road at an index: `[b, bh, wb, hi, wi, c]` read as `[b, n, hi, wi, c]`. -/
theorem merge_apply (z : SplitT.Idx → α) (h : SplitT.ShapeCasts Patches) (i : Patches.Idx) :
    shapeCast Patches z h i = z (splitTOf i) := by
  have b1 : (i 1).val < 1024 := (i 1).isLt
  refine shapeCast_apply z h i (splitTOf i) ?_
  rw [Shape.rowMajor_val_six, Shape.rowMajor_val_five]
  show (((((i 0).val * 32 + (i 1).val / 32) * 32 + (i 1).val % 32) * 16 + (i 2).val) * 16 + (i 3).val) * 3 + (i 4).val
    = ((((i 0).val * 1024 + (i 1).val) * 16 + (i 2).val) * 16 + (i 3).val) * 3 + (i 4).val
  omega

/-- The first reshape of the rank-6 road, read where the exchanged index of entry `i` points:
    `[b, H, W, c]` read as `[b, bh, hi, wb, wi, c]` at `(b, n / 32, hi, n % 32, wi, c)` is the pixel of `i`. -/
theorem split_apply (x : Img.Idx → α) (h : Img.ShapeCasts Split) (i : Patches.Idx) (k : Split.Idx)
    (k0 : (k 0).val = (i 0).val) (k1 : (k 1).val = (i 1).val / 32) (k2 : (k 2).val = (i 2).val)
    (k3 : (k 3).val = (i 1).val % 32) (k4 : (k 4).val = (i 3).val) (k5 : (k 5).val = (i 4).val) :
    shapeCast Split x h k = x (pixelOf i) := by
  refine shapeCast_apply x h k (pixelOf i) ?_
  rw [Shape.rowMajor_val_four, Shape.rowMajor_val_six]
  show (((i 0).val * 512 + ((i 1).val / 32 * 16 + (i 2).val)) * 512 + ((i 1).val % 32 * 16 + (i 3).val)) * 3 + (i 4).val
    = (((((k 0).val * 32 + (k 1).val) * 16 + (k 2).val) * 32 + (k 3).val) * 16 + (k 4).val) * 3 + (k 5).val
  rw [k0, k1, k2, k3, k4, k5]
  omega

end Cert.Patch
-- ==== Proof.PatchBlocks.lean ====
/-
  The array the region leaves, as one function of the array it finds.

  The region reads the image as `[b, bh, hi, wb, j]` (64 × 32 × 16 × 32 × 48) in 256 blocks — one image `b`, eight
  consecutive `bh` — and writes `[b, bh, wb, hi, j]` in blocks with the same `(b, bh)` range. Inside a block the body
  exchanges the axes `hi` and `wb` and nothing else, so what point `t` writes back is block `t` of the whole-array
  exchange `swapMid` of the input array: an entry of output block `t` at `(0, r, wb, hi, j)` is the input block's entry
  `(0, r, hi, wb, j)`, and both blocks start at the same `(b, 8 · bh₈)`, at zero on the three trailing axes. The output
  blocks tile the output array (index `(b, bh, …)` lies in the block of point `(b, bh / 8)`), so after the last
  write-back the array is `swapMid` of the input array everywhere.
-/
import proofs.«149363_j73143293051537_2_alg».proof.Proof.Gen.KernelIdeal.Frame
import proofs.«149363_j73143293051537_2_alg».proof.Proof.PatchSpec
import Idealize.ShloMosaic.Lib.Pipeline.Value
import Idealize.ShloMosaic.Lib.ValueIdx

noncomputable section

open Idealize.ShloMosaic Idealize.ShloMosaic.TcCoe Idealize.SL.Sem Idealize.ShloMosaic.ValueIdx
open Idealize.ShloMosaic.Pipeline (Dat)

namespace Cert.KernelIdeal.PatchValue

open Cert.KernelIdeal Cert.KernelIdeal.Gen Cert.Patch

variable {F : FTy → Type} [FloatOps F]
variable (m : (ℓ : Loc nD τ sig) → Buf (Elt F) ℓ) (ρ : Dev nD → PrngReg)

theorem hz : (![0, 0, 0, 0, 0] : Fin 5 → Nat) = fun _ => 0 := funext fun a => by fin_cases a <;> rfl

/-- Inside a block: the body's stored value at `(u, r, wb, hi, j)` is the loaded block at `(u, r, hi, wb, j)`
    (the cast to the same shape is the identity, the transpose exchanges axes 2 and 3). -/
theorem pay_apply (x0 : Vec F S1x8x16x32x48 .f32) (j : S1x8x32x16x48.Idx) :
    k0_pay1 x0 j = x0 (ix5 (j 0) (j 1) (j 3) (j 2) (j 4)) := by
  unfold k0_pay1
  rw [shapeCast_self]
  exact transpose_apply [0, 1, 3, 2, 4] x0 transposes_S1x8x16x32x48_p0_1_3_2_4_S1x8x32x16x48 j
    (ix5 (j 0) (j 1) (j 3) (j 2) (j 4)) (fun b => match b with
    | ⟨0, _⟩ => rfl
    | ⟨1, _⟩ => rfl
    | ⟨2, _⟩ => rfl
    | ⟨3, _⟩ => rfl
    | ⟨4, _⟩ => rfl)

/-- The printed index maps, decided over the 256 points: the input block and the output block of a point start at the
    same image and the same group of eight `bh`, and at zero on the three trailing axes. -/
theorem idx_facts : ∀ t : Fin cfg0.N,
    win0_0.index t (0 : Fin 5) = win0_1.index t (0 : Fin 5)
    ∧ win0_0.index t (1 : Fin 5) = win0_1.index t (1 : Fin 5)
    ∧ win0_0.index t (2 : Fin 5) = 0 ∧ win0_0.index t (3 : Fin 5) = 0 ∧ win0_0.index t (4 : Fin 5) = 0
    ∧ win0_1.index t (2 : Fin 5) = 0 ∧ win0_1.index t (3 : Fin 5) = 0 ∧ win0_1.index t (4 : Fin 5) = 0 :=
  (by decide +kernel : ∀ t : Fin grid0.N, _)

/-- Every pair (image, group of eight `bh`) is some point's output block. -/
theorem idx_onto : ∀ (q0 : Fin 64) (q1 : Fin 4), ∃ t : Fin cfg0.N, win0_1.index t = ![q0.val, q1.val, 0, 0, 0] :=
  (by decide +kernel : ∀ (q0 : Fin 64) (q1 : Fin 4), ∃ t : Fin grid0.N, win0_1.index t = ![q0.val, q1.val, 0, 0, 0])

/-- WHAT POINT `t` WRITES BACK is block `t` of the exchange of the input array's two middle axes. -/
theorem flushed_eq (c : Dev nD) (t : Fin cfg0.N) :
    (dats m 0 c).flushed 1 t = ((cfg0.win 1).blk t).view.read (Elt F) (swapMid (V m c main_v0)) := by
  show (cfg0.win 1).cut (grid0.coords t) ((dats m 0 c).after 1 t) = _
  rw [after0_1]
  unfold out0_1
  rw [View.canon_unit_zero hz]
  simp only [View.ld_unit_zero (S := S1x8x16x32x48) hz]
  obtain ⟨e0, e1, e2, e3, e4, f2, f3, f4⟩ := idx_facts t
  funext j
  refine (pay_apply (iblk m c 0 t) j).trans ?_
  show V m c main_v0 (((cfg0.win 0).blk t).view.emb (ix5 (j 0) (j 1) (j 3) (j 2) (j 4)))
    = V m c main_v0 (ix5 ((((cfg0.win 1).blk t).view.emb j) 0) ((((cfg0.win 1).blk t).view.emb j) 1)
        ((((cfg0.win 1).blk t).view.emb j) 3) ((((cfg0.win 1).blk t).view.emb j) 2) ((((cfg0.win 1).blk t).view.emb j) 4))
  refine congrArg (V m c main_v0) (funext fun a => Fin.ext ?_)
  match a with
  | ⟨0, _⟩ => show win0_0.index t (0 : Fin 5) * 1 + 1 * (j 0).val = win0_1.index t (0 : Fin 5) * 1 + 1 * (j 0).val; omega
  | ⟨1, _⟩ => show win0_0.index t (1 : Fin 5) * 8 + 1 * (j 1).val = win0_1.index t (1 : Fin 5) * 8 + 1 * (j 1).val; omega
  | ⟨2, _⟩ => show win0_0.index t (2 : Fin 5) * 16 + 1 * (j 3).val = win0_1.index t (3 : Fin 5) * 16 + 1 * (j 3).val; omega
  | ⟨3, _⟩ => show win0_0.index t (3 : Fin 5) * 32 + 1 * (j 2).val = win0_1.index t (2 : Fin 5) * 32 + 1 * (j 2).val; omega
  | ⟨4, _⟩ => show win0_0.index t (4 : Fin 5) * 48 + 1 * (j 4).val = win0_1.index t (4 : Fin 5) * 48 + 1 * (j 4).val; omega

/-- An index of the output array is in point `t`'s block iff each coordinate is in the block's range on its axis. -/
theorem mem_blk (t : Fin cfg0.N) (i : S64x32x32x16x48.Idx) :
    i ∈ ((cfg0.win 1).blk t).view.set ↔ ∀ a : Fin 5, win0_1.index t a * S1x8x32x16x48.size a ≤ (i a).val ∧ (i a).val < win0_1.index t a * S1x8x32x16x48.size a + S1x8x32x16x48.size a := by
  show i ∈ ((View.whole main_v1).slice (win0_1.rect t)).set ↔ _
  rw [View.set_slice_whole, Rect.mem_set_unit]
  exact Iff.rfl

/-- The output blocks tile the output array: index `(b, bh, …)` lies in the block of the point with block index
    `(b, bh / 8, 0, 0, 0)`. -/
theorem cover (i : S64x32x32x16x48.Idx) :
    ∃ t : Fin cfg0.N, (cfg0.win 1).flush t = true ∧ i ∈ ((cfg0.win 1).blk t).view.set := by
  have hi0 : (i 0).val < 64 := (i 0).isLt
  have hi1 : (i 1).val < 32 := (i 1).isLt
  have hi2 : (i 2).val < 32 := (i 2).isLt
  have hi3 : (i 3).val < 16 := (i 3).isLt
  have hi4 : (i 4).val < 48 := (i 4).isLt
  obtain ⟨t, ht⟩ := idx_onto ⟨(i 0).val, hi0⟩ ⟨(i 1).val / 8, by omega⟩
  have q0 : win0_1.index t (0 : Fin 5) = (i 0).val := congrFun ht 0
  have q1 : win0_1.index t (1 : Fin 5) = (i 1).val / 8 := congrFun ht 1
  have q2 : win0_1.index t (2 : Fin 5) = 0 := congrFun ht 2
  have q3 : win0_1.index t (3 : Fin 5) = 0 := congrFun ht 3
  have q4 : win0_1.index t (4 : Fin 5) = 0 := congrFun ht 4
  refine ⟨t, flush0_1 t, ?_⟩
  rw [mem_blk]
  intro a
  match a with
  | ⟨0, _⟩ => show win0_1.index t (0 : Fin 5) * 1 ≤ (i 0).val ∧ (i 0).val < win0_1.index t (0 : Fin 5) * 1 + 1; omega
  | ⟨1, _⟩ => show win0_1.index t (1 : Fin 5) * 8 ≤ (i 1).val ∧ (i 1).val < win0_1.index t (1 : Fin 5) * 8 + 8; omega
  | ⟨2, _⟩ => show win0_1.index t (2 : Fin 5) * 32 ≤ (i 2).val ∧ (i 2).val < win0_1.index t (2 : Fin 5) * 32 + 32; omega
  | ⟨3, _⟩ => show win0_1.index t (3 : Fin 5) * 16 ≤ (i 3).val ∧ (i 3).val < win0_1.index t (3 : Fin 5) * 16 + 16; omega
  | ⟨4, _⟩ => show win0_1.index t (4 : Fin 5) * 48 ≤ (i 4).val ∧ (i 4).val < win0_1.index t (4 : Fin 5) * 48 + 48; omega

/-- THE OUTPUT ARRAY after the last write-back: the input array with its two middle axes exchanged. -/
theorem final (c : Dev nD) : (dats m 0 c).arrAt 1 cfg0.N = swapMid (V m c main_v0) :=
  (dats m 0 c).arrAt_eq_of_cover 1 (swapMid (V m c main_v0)) (fun t _ => flushed_eq m c t) cover

end Cert.KernelIdeal.PatchValue

end
-- ==== Proof.PatchRun.lean ====
/-
  The kernel program's result as one function of the image.

  Around the region the program has two reshapes. The first makes the array the region finds: the image
  `[b, H, W, c]` read as `[b, bh, hi, wb, j]` (`entry`). The region leaves that array with `hi` and `wb` exchanged
  (`final`, the blocks module). The second reshape reads the exchanged array `[b, bh, wb, hi, j]` as
  `[b, n, hi, wi, c]`. Reshape, exchange, reshape is patch extraction (`reshape_swap_reshape`), so the program's
  result array ends at `patches` of the image, and the image itself is never written (`run`).
-/
import proofs.«149363_j73143293051537_2_alg».proof.Proof.Gen.KernelIdeal.Frame
import proofs.«149363_j73143293051537_2_alg».proof.Proof.PatchSpec
import proofs.«149363_j73143293051537_2_alg».proof.Proof.PatchBlocks
import Idealize.ShloMosaic.Lib.Pipeline.Value
import Idealize.ShloMosaic.Lib.StableHlo.Run

noncomputable section

open Idealize.ShloMosaic Idealize.ShloMosaic.TcCoe Idealize.SL.Sem Idealize.ShloMosaic.StableHlo
open Idealize.ShloMosaic.Pipeline (Dat)

namespace Cert.KernelIdeal.PatchValue

open Cert.KernelIdeal Cert.KernelIdeal.Gen Cert.Patch

variable {F : FTy → Type} [FloatOps F]
variable (m : (ℓ : Loc nD τ sig) → Buf (Elt F) ℓ) (ρ : Dev nD → PrngReg)

/-- The array the region finds is the image read as `[b, bh, hi, wb, j]`: the one host operation before the region. -/
theorem entry (c : Dev nD) :
    (V m c main_v0 : S64x32x16x32x48.Idx → Elt F .f32)
      = shapeCast S64x32x16x32x48 (m ((c : Thread nD τ).loc main_arg0) : S64x512x512x3.Idx → Elt F .f32)
          shapeCasts_S64x512x512x3_S64x32x16x32x48 := by
  show StableHlo.after hostOps0 (fun b => m (c, b)) (Proc.devRef .tc main_v0) = _
  after_results
  rfl

/-- The program's result: the host operation after the region reads the exchanged array as `[b, n, hi, wi, c]`,
    and reshape, exchange, reshape of the image is its patches. -/
theorem result (c : Dev nD) :
    (Pipeline.afterTail₀ cfgs (dats m) 0 (V0 m) [hostOps1] c main_v2 : S64x1024x16x16x3.Idx → Elt F .f32)
      = patches (m ((c : Thread nD τ).loc main_arg0) : S64x512x512x3.Idx → Elt F .f32) := by
  unfold Pipeline.afterTail₀
  show StableHlo.after hostOps1 _ (Proc.devRef .tc main_v2) = _
  after_results
  refine (congrArg (fun y : S64x32x32x16x48.Idx → Elt F .f32 =>
      shapeCast S64x1024x16x16x3 y shapeCasts_S64x32x32x16x48_S64x1024x16x16x3)
    ((Pipeline.withArrays_arr spec0 launch0.win.arr_inj c _ _ 1).trans
      ((final m c).trans (congrArg swapMid (entry m c))))).trans ?_
  exact reshape_swap_reshape _ _ _

/-- THE KERNEL PROGRAM'S RUN: every weakly fair execution terminates with the result array at the patches of the image
    and the image unchanged. -/
theorem run : θ_run defs (onTc (τ := τ) (main (F := F))) ⟨m, fun _ => 0, ρ⟩ fun r => ∀ c : Dev nD,
      r.2.mem ((c : Thread nD τ).loc main_v2)
        = patches (m ((c : Thread nD τ).loc main_arg0) : S64x512x512x3.Idx → Elt F .f32)
      ∧ r.2.mem ((c : Thread nD τ).loc main_arg0) = m ((c : Thread nD τ).loc main_arg0) :=
  (θ_run defs _ _).mono (fun r h c =>
      ⟨((h c).2 main_v2 (Pipeline.mem_restRefs_of main_v2 (by decide) (by decide))).trans (result m c),
       ((h c).2 main_arg0 (Pipeline.mem_restRefs_of main_arg0 (by decide) (by decide))).trans (W_main_arg0 m (dats m) c)⟩)
    (run_main m ρ)

end Cert.KernelIdeal.PatchValue

end
-- ==== Proof.PatchReference.lean ====
/-
  The reference's result is the patches of the image.

  The reference reads the image `[b, H, W, c]` as `[b, bh, hi, wb, wi, c]`, exchanges `hi` and `wb`, and reads
  `[b, bh, wb, hi, wi, c]` as `[b, n, hi, wi, c]`. Read at an entry `(b, n, hi, wi, c)` from the outside in: the last
  reshape reads `(b, n / 32, n % 32, hi, wi, c)`, the exchange reads `(b, n / 32, hi, n % 32, wi, c)`, and the first
  reshape reads there the pixel `(b, 16 · (n / 32) + hi, 16 · (n % 32) + wi, c)`.
-/
import proofs.«149363_j73143293051537_2_alg».proof.Proof.Gen.ReferenceIdeal.Read
import proofs.«149363_j73143293051537_2_alg».proof.Proof.PatchSpec

noncomputable section

open Idealize.ShloMosaic Idealize.ShloMosaic.TcCoe Idealize.SL.Sem

namespace Cert.ReferenceIdeal.PatchValue

open Cert.ReferenceIdeal Cert.ReferenceIdeal.Gen Cert.ReferenceIdeal.Read Cert.Patch

variable {F : FTy → Type} [FloatOps F]

/-- The reference's last stage, entry by entry, is patch extraction. -/
theorem result_eq (x0 : (⟨S64x512x512x3, .f32⟩ : BufTy).Contents (Elt F)) :
    val_main_v2 (F := F) x0 = patches (x0 : S64x512x512x3.Idx → Elt F .f32) := by
  funext i
  unfold val_main_v2
  refine (merge_apply (val_main_v1 (F := F) x0) shapeCasts_S64x32x32x16x16x3_S64x1024x16x16x3 i).trans ?_
  rw [val_main_v1_apply]
  unfold val_main_v0
  exact split_apply x0 shapeCasts_S64x512x512x3_S64x32x16x32x16x3 i (idx_main_v1 (splitTOf i)) rfl rfl rfl rfl rfl rfl

end Cert.ReferenceIdeal.PatchValue

end
-- ==== Proof.lean ====
/- The proof of `Cert.Claim`: a patch-extraction kernel against its jnp reference.

   Both programs only move entries: each entry `(b, n, hi, wi, c)` of the result is the pixel
   `(b, 16 · (n / 32) + hi, 16 · (n % 32) + wi, c)` of the image (`Cert.Patch.patches`, Proof/PatchSpec.lean). The kernel
   program reshapes the image to `[b, bh, hi, wb, j]`, exchanges `hi` and `wb` block by block in its one region, and
   reshapes `[b, bh, wb, hi, j]` to the result (Proof/PatchBlocks.lean: what a grid point writes back and the array
   after the region; Proof/PatchRun.lean: the two reshapes around it and the run). The reference splits both `H` and
   `W`, exchanges `hi` and `wb` in rank 6, and merges (Proof/PatchReference.lean). No arithmetic is done on an entry,
   so the two results agree on all extended reals and the finiteness of the input is never used. The three frames are
   the generated ones; the ideal pass rewrote nothing, so `preserves` is `True`. -/
import proofs.«149363_j73143293051537_2_alg».proof.Defs
import proofs.«149363_j73143293051537_2_alg».proof.Proof.Gen.Kernel
import proofs.«149363_j73143293051537_2_alg».proof.Proof.Gen.Kernel.Skeleton
import proofs.«149363_j73143293051537_2_alg».proof.Proof.Gen.Kernel.Launch
import proofs.«149363_j73143293051537_2_alg».proof.Proof.Gen.Kernel.Points
import proofs.«149363_j73143293051537_2_alg».proof.Proof.Gen.Kernel.Frame
import proofs.«149363_j73143293051537_2_alg».proof.Proof.Gen.KernelIdeal
import proofs.«149363_j73143293051537_2_alg».proof.Proof.Gen.KernelIdeal.Skeleton
import proofs.«149363_j73143293051537_2_alg».proof.Proof.Gen.KernelIdeal.Launch
import proofs.«149363_j73143293051537_2_alg».proof.Proof.Gen.KernelIdeal.Points
import proofs.«149363_j73143293051537_2_alg».proof.Proof.Gen.KernelIdeal.Frame
import proofs.«149363_j73143293051537_2_alg».proof.Proof.Gen.ReferenceIdeal
import proofs.«149363_j73143293051537_2_alg».proof.Proof.Gen.ReferenceIdeal.Run
import proofs.«149363_j73143293051537_2_alg».proof.Proof.Gen.ReferenceIdeal.Read
import proofs.«149363_j73143293051537_2_alg».proof.Proof.Gen.Pre_finite_inputs
import proofs.«149363_j73143293051537_2_alg».proof.Proof.PatchSpec
import proofs.«149363_j73143293051537_2_alg».proof.Proof.PatchBlocks
import proofs.«149363_j73143293051537_2_alg».proof.Proof.PatchRun
import proofs.«149363_j73143293051537_2_alg».proof.Proof.PatchReference
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ
theorem frame_ki : Cert.frame_KernelIdeal := fun m ρ _ => Cert.KernelIdeal.Gen.frame m ρ
/-- The reference has no region: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Both programs end with the patches of the image they were given, and they were given the same image. -/
theorem algebraic : Cert.algebraic_KernelIdeal_ReferenceIdeal := by
  intro m ρ m' ρ' _ hagree
  refine ⟨fun c => Cert.Patch.patches
      (m ((c.tc : Thread Cert.KernelIdeal.nD Cert.KernelIdeal.τ).loc Cert.KernelIdeal.main_arg0)
        : Cert.KernelIdeal.S64x512x512x3.Idx → Elt Ideal .f32),
    Cert.KernelIdeal.PatchValue.run (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v2_eq, Cert.ReferenceIdeal.PatchValue.result_eq, hagree c]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
